-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg12 : FVec F S128x4 .f32) (main_arg13 : FVec F S4 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x4 .f32 := Host.absf main_arg12
  let main_cst_20 : FVec F S_ .f32 := constant S_ .f32 0x7F800000#32
  let main_v55 : FVec F S128x4 .f32 := broadcastInDim S128x4 ![] bcast_S_S128x4 main_cst_20
  let main_v56 : IVec S128x4 1 := cmpf .olt main_v54 main_v55
  let main_c_21 : IVec S_ 1 := constantI S_ 1 1#1
  let main_v57 : IVec S_ 1 := (fun x v => Host.reduce IntOp.andi x v reducesTo_S128x4_S_d0_1 h_S_) main_v56 main_c_21
  let main_v58 : IVec S_ 1 := andi main_v53 main_v57
  let main_v59 : FVec F S4 .f32 := Host.absf main_arg13
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S128 .f32) (main_arg11 : FVec F S128 .f32) (main_arg12 : FVec F S128x4 .f32) (main_arg13 : FVec F S4 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128x4 .f32) (main_arg13 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128x4 .f32) (main_arg13 : FVec F S4 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩
abbrev S50000x4 : Shape := ⟨2, ![50000, 4]⟩
abbrev S5000x4 : Shape := ⟨2, ![5000, 4]⟩
abbrev S1x4 : Shape := ⟨2, ![1, 4]⟩

abbrev nBuf : Space → Nat
  | .hbm => 63
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x4, .f32⟩
  | .hbm, ⟨13, _⟩ => ⟨S4, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x4, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128, .f32⟩
  | .local _ .vmem, ⟨17, _⟩ => ⟨S128x128, .f32⟩
  | .local _ .vmem, ⟨18, _⟩ => ⟨S128, .f32⟩
  | .local _ .vmem, ⟨19, _⟩ => ⟨S128, .f32⟩
  | .local _ .vmem, ⟨20, _⟩ => ⟨S128x4, .f32⟩
  | .local _ .vmem, ⟨21, _⟩ => ⟨S4, .f32⟩
  | .local _ .vmem, ⟨22, _⟩ => ⟨S5000x4, .f32⟩
  | .local _ .vmem, ⟨23, _⟩ => ⟨S5000x4, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x4 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x4 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x4_S128x4_0_0 : ∀ a, (![0, 0] : Fin 2 → Nat) a + S128x4.size a ≤ S128x4.size a
  h_S128x4 : 0 < S128x4.numel
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x4_S5000x4_1_0_0_1_n_n_wf : DotDims.WF S5000x128 S128x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x4.size a ≤ S128x4.size a
  hwx1_7 : ∀ i : grid1.Coords, EltTy.bits .f32 = 32 ∨ (Rect.block (s := S128x4) S128x4.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4.size a ≤ S4.size a
  hwx1_8 : ∀ i : grid1.Coords, EltTy.bits .f32 = 32 ∨ (Rect.block (s := S4) S4.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x4.size a ≤ S50000x4.size a
  hwx1_9 : ∀ i : grid1.Coords, EltTy.bits .f32 = 32 ∨ (Rect.block (s := S50000x4) S5000x4.size (cc1_transform_9 i) (hinb1_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S128x4.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S4.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38) S5000x4.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x4 : Shape := ⟨2, ![50000, 4]⟩
abbrev S1x4 : Shape := ⟨2, ![1, 4]⟩

abbrev nBuf : Space → Nat
  | .hbm => 141
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128x4, .f32⟩
  | 13 => ⟨S4, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S50000x1, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S50000x128, .f32⟩
  | 51 => ⟨S50000x128, .f32⟩
  | 52 => ⟨S_, .f32⟩
  | 53 => ⟨S50000, .f32⟩
  | 54 => ⟨S50000x1, .f32⟩
  | 55 => ⟨S_, .f32⟩
  | 56 => ⟨S50000x1, .f32⟩
  | 57 => ⟨S50000x1, .f32⟩
  | 58 => ⟨S50000x128, .f32⟩
  | 59 => ⟨S50000x128, .f32⟩
  | 60 => ⟨S50000x128, .f32⟩
  | 61 => ⟨S_, .f32⟩
  | 62 => ⟨S50000, .f32⟩
  | 63 => ⟨S50000x1, .f32⟩
  | 64 => ⟨S_, .f32⟩
  | 65 => ⟨S50000x1, .f32⟩
  | 66 => ⟨S50000x1, .f32⟩
  | 67 => ⟨S50000x128, .f32⟩
  | 68 => ⟨S50000x128, .f32⟩
  | 69 => ⟨S_, .f32⟩
  | 70 => ⟨S50000x1, .f32⟩
  | 71 => ⟨S50000x1, .f32⟩
  | 72 => ⟨S50000x1, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S50000x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S50000x128, .f32⟩
  | 104 => ⟨S50000x128, .f32⟩
  | 105 => ⟨S_, .f32⟩
  | 106 => ⟨S50000, .f32⟩
  | 107 => ⟨S50000x1, .f32⟩
  | 108 => ⟨S_, .f32⟩
  | 109 => ⟨S50000x1, .f32⟩
  | 110 => ⟨S50000x1, .f32⟩
  | 111 => ⟨S50000x128, .f32⟩
  | 112 => ⟨S50000x128, .f32⟩
  | 113 => ⟨S50000x128, .f32⟩
  | 114 => ⟨S_, .f32⟩
  | 115 => ⟨S50000, .f32⟩
  | 116 => ⟨S50000x1, .f32⟩
  | 117 => ⟨S_, .f32⟩
  | 118 => ⟨S50000x1, .f32⟩
  | 119 => ⟨S50000x1, .f32⟩
  | 120 => ⟨S50000x128, .f32⟩
  | 121 => ⟨S50000x128, .f32⟩
  | 122 => ⟨S_, .f32⟩
  | 123 => ⟨S50000x1, .f32⟩
  | 124 => ⟨S50000x1, .f32⟩
  | 125 => ⟨S50000x1, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x4, .f32⟩
  | 10 => ⟨S1x4, .f32⟩
  | 11 => ⟨S50000x4, .f32⟩
  | 12 => ⟨S50000x4, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call0_cst : Ref sig .tc := ⟨.hbm, 81, rfl⟩
abbrev main_call0_v0 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_13 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_15 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_17 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_call1_cst : Ref sig .tc := ⟨.hbm, 134, rfl⟩
abbrev main_call1_v0 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x4_S50000x4_1_0_0_1_n_n_wf : DotDims.WF S50000x128 S128x4 S50000x4 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x4_S50000x4_1_0_0_1_n_n : DotDims S50000x128 S128x4 S50000x4 where
  lhsContracting := [1]
  rhsContracting := [0]
  lhsNonContracting := [0]
  rhsNonContracting := [1]
  lhsBatch := []
  rhsBatch := []
  wf := dot_S50000x128_S128x4_S50000x4_1_0_0_1_n_n_wf

class Facts : Prop extends Facts₀ where

variable [Facts]
-- ==== Proof.Layer.lean ====
/-
  One GraphSAGE layer, and the output head, as functions on the extended reals.

  A node r has its own feature row (x r) and the mean of its in-neighbours' rows (agg r), both of width 128. The layer maps
  them to relu (LN (agg r · W_l + b_l + x r · W_r)), where LN subtracts the row's mean, multiplies by the reciprocal square
  root of the row's variance plus a small constant, scales by g and shifts by b. Row r of the result depends on row r of
  x and of agg only, so one definition reads a whole [n, 128] array and any block of its rows alike. The head is a last
  affine map h r · W_h + b_h into four columns.

  Nothing here mentions a program: the sums are plain finite sums over the 128 columns, and the three float words (the row
  width 128, the stabiliser next to 1e-5, and zero) are kept as words.
-/
import Idealize.ShloMosaic.PureOps.Ideal
import Idealize.ShloMosaic.PureOps.Ideal.Laws
import Idealize.ShloMosaic.Lib.ValueIdx
import Idealize.ShloMosaic.Lib.ValueLayout

noncomputable section

namespace Cert.Sage

open Idealize.ShloMosaic Idealize.ShloMosaic.ValueIdx

/-! ## One node -/

/-- The row width 128, as a float word. -/
abbrev width : EReal := Ideal.ofBits .f32 0x43000000#32
/-- The variance's stabiliser: the float word nearest 1e-5. -/
abbrev eps : EReal := Ideal.ofBits .f32 0x3727C5AC#32
/-- Zero as a float word: relu's threshold. -/
abbrev zero : EReal := Ideal.ofBits .f32 0x00000000#32

/-- Entry j of a node's pre-activation: (a · W_l)_j + b_j + (x · W_r)_j, with a the aggregated neighbourhood row
    and x the node's own row. -/
def pre (a x : Fin 128 → EReal) (wl : Fin 128 → Fin 128 → EReal) (bl : Fin 128 → EReal)
    (wr : Fin 128 → Fin 128 → EReal) (j : Fin 128) : EReal :=
  ((∑ k : Fin 128, a k * wl k j) + bl j) + ∑ k : Fin 128, x k * wr k j

/-- The mean of a row: its sum divided by the width. -/
def mean (h : Fin 128 → EReal) : EReal := Ideal.div (∑ k : Fin 128, h k) width

/-- The variance of a row about its mean, plus the stabiliser. -/
def spread (h : Fin 128 → EReal) : EReal :=
  Ideal.div (∑ k : Fin 128, (h k - mean h) * (h k - mean h)) width + eps

/-- Entry j of the normalised, scaled, shifted and rectified row. -/
def normRelu (h g b : Fin 128 → EReal) (j : Fin 128) : EReal :=
  max ((((h j - mean h) * Ideal.rsqrt (spread h)) * g j) + b j) zero

/-! ## Arrays of nodes -/

/-- Row r of an [n, c] array. -/
abbrev row {n c : ℕ} (X : (⟨2, ![n, c]⟩ : Shape).Idx → EReal) (r : Fin n) : Fin c → EReal := fun k => X (ix2 r k)
/-- A [128, c] weight array as a function of (input column, output column). -/
abbrev mat {c : ℕ} (W : (⟨2, ![128, c]⟩ : Shape).Idx → EReal) : Fin 128 → Fin c → EReal := fun k j => W (ix2 k j)
/-- A [c] array as a function of the column. -/
abbrev vec {c : ℕ} (v : (⟨1, ![c]⟩ : Shape).Idx → EReal) : Fin c → EReal := fun j => v (ix1 j)

/-- The layer on n nodes: entry (r, j) is normRelu of node r's pre-activation. -/
def layer {n : ℕ} (x agg : (⟨2, ![n, 128]⟩ : Shape).Idx → EReal) (wl : (⟨2, ![128, 128]⟩ : Shape).Idx → EReal)
    (bl : (⟨1, ![128]⟩ : Shape).Idx → EReal) (wr : (⟨2, ![128, 128]⟩ : Shape).Idx → EReal)
    (g b : (⟨1, ![128]⟩ : Shape).Idx → EReal) : (⟨2, ![n, 128]⟩ : Shape).Idx → EReal :=
  fun i => normRelu (pre (row agg (i 0)) (row x (i 0)) (mat wl) (vec bl) (mat wr)) (vec g) (vec b) (i 1)

/-- The head on n nodes: entry (r, q) is (h r · W_h)_q + b_q. -/
def head {n : ℕ} (h : (⟨2, ![n, 128]⟩ : Shape).Idx → EReal) (wh : (⟨2, ![128, 4]⟩ : Shape).Idx → EReal)
    (bh : (⟨1, ![4]⟩ : Shape).Idx → EReal) : (⟨2, ![n, 4]⟩ : Shape).Idx → EReal :=
  fun i => (∑ k : Fin 128, row h (i 0) k * mat wh k (i 1)) + vec bh (i 1)

theorem layer_apply {n : ℕ} (x agg : (⟨2, ![n, 128]⟩ : Shape).Idx → EReal) (wl : (⟨2, ![128, 128]⟩ : Shape).Idx → EReal)
    (bl : (⟨1, ![128]⟩ : Shape).Idx → EReal) (wr : (⟨2, ![128, 128]⟩ : Shape).Idx → EReal)
    (g b : (⟨1, ![128]⟩ : Shape).Idx → EReal) (r : Fin n) (j : Fin 128) :
    layer x agg wl bl wr g b (ix2 r j) = normRelu (pre (row agg r) (row x r) (mat wl) (vec bl) (mat wr)) (vec g) (vec b) j := rfl

theorem head_apply {n : ℕ} (h : (⟨2, ![n, 128]⟩ : Shape).Idx → EReal) (wh : (⟨2, ![128, 4]⟩ : Shape).Idx → EReal)
    (bh : (⟨1, ![4]⟩ : Shape).Idx → EReal) (r : Fin n) (q : Fin 4) :
    head h wh bh (ix2 r q) = (∑ k : Fin 128, row h r k * mat wh k q) + vec bh q := rfl

/-- A row of the layer's result depends on the same row of x and of agg only, and on the weights entry by entry: when row p
    of a block is row r of the whole arrays and the weights agree, the block's result at (p, j) is the arrays' at (r, j). -/
theorem layer_congr {n n' : ℕ} (x agg : (⟨2, ![n, 128]⟩ : Shape).Idx → EReal) (x' agg' : (⟨2, ![n', 128]⟩ : Shape).Idx → EReal)
    (wl wl' : (⟨2, ![128, 128]⟩ : Shape).Idx → EReal) (bl bl' : (⟨1, ![128]⟩ : Shape).Idx → EReal)
    (wr wr' : (⟨2, ![128, 128]⟩ : Shape).Idx → EReal) (g g' b b' : (⟨1, ![128]⟩ : Shape).Idx → EReal) (p : Fin n') (r : Fin n)
    (hx : ∀ k, x' (ix2 p k) = x (ix2 r k)) (ha : ∀ k, agg' (ix2 p k) = agg (ix2 r k))
    (hwl : ∀ k j, wl' (ix2 k j) = wl (ix2 k j)) (hbl : ∀ j, bl' (ix1 j) = bl (ix1 j)) (hwr : ∀ k j, wr' (ix2 k j) = wr (ix2 k j))
    (hg : ∀ j, g' (ix1 j) = g (ix1 j)) (hb : ∀ j, b' (ix1 j) = b (ix1 j)) (j : Fin 128) :
    layer x' agg' wl' bl' wr' g' b' (ix2 p j) = layer x agg wl bl wr g b (ix2 r j) := by
  rw [layer_apply, layer_apply, show row agg' p = row agg r from funext ha, show row x' p = row x r from funext hx,
    show mat wl' = mat wl from funext fun k => funext fun j => hwl k j, show vec bl' = vec bl from funext hbl,
    show mat wr' = mat wr from funext fun k => funext fun j => hwr k j, show vec g' = vec g from funext hg,
    show vec b' = vec b from funext hb]

/-- The same for the head. -/
theorem head_congr {n n' : ℕ} (h : (⟨2, ![n, 128]⟩ : Shape).Idx → EReal) (h' : (⟨2, ![n', 128]⟩ : Shape).Idx → EReal)
    (wh wh' : (⟨2, ![128, 4]⟩ : Shape).Idx → EReal) (bh bh' : (⟨1, ![4]⟩ : Shape).Idx → EReal) (p : Fin n') (r : Fin n)
    (hh : ∀ k, h' (ix2 p k) = h (ix2 r k)) (hwh : ∀ k q, wh' (ix2 k q) = wh (ix2 k q)) (hbh : ∀ q, bh' (ix1 q) = bh (ix1 q)) (q : Fin 4) :
    head h' wh' bh' (ix2 p q) = head h wh bh (ix2 r q) := by
  rw [head_apply, head_apply, show row h' p = row h r from funext hh,
    show mat wh' = mat wh from funext fun k => funext fun q => hwh k q, show vec bh' = vec bh from funext hbh]

/-! ## Two layout readings: a vector as a column, and a column spread over the columns -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Sage

end
-- ==== Proof.Body.lean ====
/-
  What the two kernel bodies compute, read at an index.

  Both bodies take a block of 5000 node rows. Each forms the pre-activation rows by two matrix products on the matrix unit
  (the operands' change of float format is the identity on the extended reals) and a bias row, normalises every row by
  its own mean and variance (two lane sums, a reciprocal square root), scales, shifts and rectifies. So the first body's
  store is the layer of Layer.lean on the block's rows, and the second body's store is the head of that layer.

  The readings used: a matrix product into a zero accumulator is the sum over the contracted column; a lane sum is the
  sum over the row; a [128] vector cast to one row and spread over the rows reads its column's entry; a [5000] vector cast
  to one column and spread over the columns reads its row's entry.
-/
import proofs.«163054_j72181220377205_1_alg».proof.Proof.Gen.KernelIdeal.Skeleton
import proofs.«163054_j72181220377205_1_alg».proof.Proof.Layer
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Bridge

open Cert.KernelIdeal Cert.KernelIdeal.Gen
open Idealize.ShloMosaic Idealize.ShloMosaic.ValueIdx

/-! ## The non-pointwise operations, read at an index -/

theorem mm_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into a zero accumulator, read at (p, q): the sum over the contracted column k of the left
    operand at (p, k) times the right operand at (k, q). -/
theorem mm_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q) = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact mm_l0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact mm_r1 _ _)
  rw [el, er]

theorem mh_l0 (i : S5000x4.Idx) (q : dot_S5000x128_S128x4_S5000x4_1_0_0_1_n_n.contr.Idx) : (dot_S5000x128_S128x4_S5000x4_1_0_0_1_n_n.lhsIdx i q 0).val = (i 0).val := by
  unfold DotDims.lhsIdx
  rw [dif_neg (show ¬(0 : Fin S5000x128.rank) ∈ dot_S5000x128_S128x4_S5000x4_1_0_0_1_n_n.lhsBatch by decide), dif_pos (show (0 : Fin S5000x128.rank) ∈ dot_S5000x128_S128x4_S5000x4_1_0_0_1_n_n.lhsNonContracting by decide)]
  rfl
theorem mh_r1 (i : S5000x4.Idx) (q : dot_S5000x128_S128x4_S5000x4_1_0_0_1_n_n.contr.Idx) : (dot_S5000x128_S128x4_S5000x4_1_0_0_1_n_n.rhsIdx i q 1).val = (i 1).val := by
  unfold DotDims.rhsIdx
  rw [dif_neg (show ¬(1 : Fin S128x4.rank) ∈ dot_S5000x128_S128x4_S5000x4_1_0_0_1_n_n.rhsBatch by decide), dif_pos (show (1 : Fin S128x4.rank) ∈ dot_S5000x128_S128x4_S5000x4_1_0_0_1_n_n.rhsNonContracting by decide)]
  rfl

/-- The matrix unit's product into a zero accumulator, read at (p, q): the sum over the contracted column k of the left
    operand at (p, k) times the right operand at (k, q). -/
theorem mh_apply (l : FVec Ideal S5000x128 .bf16) (r : FVec Ideal S128x4 .bf16) (p : Fin 5000) (q : Fin 4) :
    matmul dot_S5000x128_S128x4_S5000x4_1_0_0_1_n_n none l r (constant S5000x4 .f32 0x00000000#32) (ix2 p q) = ∑ k : Fin 128, l (ix2 p k) * r (ix2 k q) := by
  refine (Ideal.matmul_constant_zero_apply dot_S5000x128_S128x4_S5000x4_1_0_0_1_n_n none l r (ix2 p q)).trans ?_
  rw [← Equiv.sum_comp (contrEquiv1 dot_S5000x128_S128x4_S5000x4_1_0_0_1_n_n 128 rfl rfl).symm]
  refine Finset.sum_congr rfl fun k _ => ?_
  have hk := contrEquiv1_symm_val dot_S5000x128_S128x4_S5000x4_1_0_0_1_n_n 128 rfl rfl k
  have el : dot_S5000x128_S128x4_S5000x4_1_0_0_1_n_n.lhsIdx (ix2 p q) ((contrEquiv1 dot_S5000x128_S128x4_S5000x4_1_0_0_1_n_n 128 rfl rfl).symm k) = ix2 p k := funext fun a => Fin.ext (by
    match a with
    | ⟨0, _⟩ => exact mh_l0 _ _
    | ⟨1, _⟩ => exact (dot_S5000x128_S128x4_S5000x4_1_0_0_1_n_n.lhsIdx_val_of_single rfl _ _).trans hk)
  have er : dot_S5000x128_S128x4_S5000x4_1_0_0_1_n_n.rhsIdx (ix2 p q) ((contrEquiv1 dot_S5000x128_S128x4_S5000x4_1_0_0_1_n_n 128 rfl rfl).symm k) = ix2 k q := funext fun a => Fin.ext (by
    match a with
    | ⟨0, _⟩ => exact (dot_S5000x128_S128x4_S5000x4_1_0_0_1_n_n.rhsIdx_val_of_single rfl _ _).trans hk
    | ⟨1, _⟩ => exact mh_r1 _ _)
  rw [el, er]

/-- A lane sum over the columns, read at row p: the sum over the row. -/
theorem rsum_apply (v : FVec Ideal S5000x128 .f32) (p : Fin 5000) :
    multiReduction .add [1] S5000 v 0x00000000#32 reduces_S5000x128_S5000 (.inl rfl) rfl (ix1 p) = ∑ k : Fin 128, v (ix2 p k) := by
  refine (Ideal.multiReduction_add_single v 0x00000000#32 reduces_S5000x128_S5000 (.inl rfl) rfl (ix1 p)).trans ?_
  refine Finset.sum_congr rfl fun k _ => ?_
  exact congrArg v (funext fun a => Fin.ext (by match a with | ⟨0, _⟩ => rfl | ⟨1, _⟩ => rfl))

/-- A [128] vector as one row spread over 5000 rows reads, at (p, q), its entry q. -/
theorem brow_apply (v : FVec Ideal S128 .f32) (p : Fin 5000) (q : Fin 128) :
    broadcastTo S5000x128 (shapeCast S1x128 v shapeCasts_S128_S1x128) broadcasts_S1x128_S5000x128 (ix2 p q) = v (ix1 q) :=
  (broadcastTo_1b_ab_apply _ _ p q).trans (shapeCast_a_1a_apply v _ 0 q)

/-- A [4] vector as one row spread over 5000 rows reads, at (p, q), its entry q. -/
theorem brow4_apply (v : FVec Ideal S4 .f32) (p : Fin 5000) (q : Fin 4) :
    broadcastTo S5000x4 (shapeCast S1x4 v shapeCasts_S4_S1x4) broadcasts_S1x4_S5000x4 (ix2 p q) = v (ix1 q) :=
  (broadcastTo_1b_ab_apply _ _ p q).trans (shapeCast_a_1a_apply v _ 0 q)

/-- A one-entry column per row spread over the 128 columns reads, at (p, q), row p's entry. -/
theorem bcol_apply (s : FVec Ideal S5000x1 .f32) (p : Fin 5000) (q : Fin 128) :
    broadcastTo S5000x128 s broadcasts_S5000x1_S5000x128 (ix2 p q) = s (ix2 p (0 : Fin 1)) :=
  Cert.Sage.broadcastTo_a1_ab_apply s _ p q

/-- A [5000] vector as a one-entry column per row reads, at (p, u), its entry p. -/
theorem ccol_apply (v : FVec Ideal S5000 .f32) (p : Fin 5000) (u : Fin 1) :
    shapeCast S5000x1 v shapeCasts_S5000_S5000x1 (ix2 p u) = v (ix1 p) :=
  Cert.Sage.shapeCast_a_a1_apply v _ p u

/-! ## The normalisation both bodies share -/

/-- Each row's mean, as a one-entry column. -/
def rowMean (h : FVec Ideal S5000x128 .f32) : FVec Ideal S5000x1 .f32 :=
  divf (shapeCast S5000x1 (multiReduction .add [1] S5000 h 0x00000000#32 reduces_S5000x128_S5000 (.inl rfl) rfl) shapeCasts_S5000_S5000x1)
    (broadcast S5000x1 (Scalar.ofBits .f32 0x43000000#32))

theorem rowMean_apply (h : FVec Ideal S5000x128 .f32) (p : Fin 5000) (u : Fin 1) :
    rowMean h (ix2 p u) = Cert.Sage.mean (Cert.Sage.row h p) := by
  unfold rowMean
  refine (divf_apply _ _ _).trans ?_
  rw [ccol_apply, rsum_apply]
  rfl

/-- Each entry less its row's mean. -/
def centred (h : FVec Ideal S5000x128 .f32) : FVec Ideal S5000x128 .f32 :=
  subf h (broadcastTo S5000x128 (rowMean h) broadcasts_S5000x1_S5000x128)

theorem centred_apply (h : FVec Ideal S5000x128 .f32) (p : Fin 5000) (q : Fin 128) :
    centred h (ix2 p q) = h (ix2 p q) - Cert.Sage.mean (Cert.Sage.row h p) := by
  unfold centred
  refine (subf_apply _ _ _).trans ?_
  rw [bcol_apply, rowMean_apply]

/-- Each row's variance plus the stabiliser, as a one-entry column. -/
def rowSpread (h : FVec Ideal S5000x128 .f32) : FVec Ideal S5000x1 .f32 :=
  addf (divf (shapeCast S5000x1 (multiReduction .add [1] S5000 (mulf (centred h) (centred h)) 0x00000000#32 reduces_S5000x128_S5000 (.inl rfl) rfl) shapeCasts_S5000_S5000x1)
      (broadcast S5000x1 (Scalar.ofBits .f32 0x43000000#32)))
    (broadcast S5000x1 (Scalar.ofBits .f32 0x3727C5AC#32))

theorem rowSpread_apply (h : FVec Ideal S5000x128 .f32) (p : Fin 5000) (u : Fin 1) :
    rowSpread h (ix2 p u) = Cert.Sage.spread (Cert.Sage.row h p) := by
  unfold rowSpread
  refine (addf_apply _ _ _).trans ?_
  refine congrArg (· + _) ((divf_apply _ _ _).trans ?_)
  rw [ccol_apply, rsum_apply]
  simp only [mulf_apply, centred_apply]
  rfl

/-- The normalised rows scaled by g (the shift and relu come after). -/
def scaled (h : FVec Ideal S5000x128 .f32) (g : FVec Ideal S128 .f32) : FVec Ideal S5000x128 .f32 :=
  mulf (mulf (centred h) (broadcastTo S5000x128 (rsqrt (rowSpread h)) broadcasts_S5000x1_S5000x128))
    (broadcastTo S5000x128 (shapeCast S1x128 g shapeCasts_S128_S1x128) broadcasts_S1x128_S5000x128)

theorem scaled_apply (h : FVec Ideal S5000x128 .f32) (g : FVec Ideal S128 .f32) (p : Fin 5000) (q : Fin 128) :
    scaled h g (ix2 p q)
      = ((h (ix2 p q) - Cert.Sage.mean (Cert.Sage.row h p)) * Ideal.rsqrt (Cert.Sage.spread (Cert.Sage.row h p))) * g (ix1 q) := by
  unfold scaled
  refine (mulf_apply _ _ _).trans ?_
  rw [brow_apply]
  refine congrArg (· * _) ((mulf_apply _ _ _).trans ?_)
  rw [centred_apply, bcol_apply]
  show _ * Ideal.rsqrt (rowSpread h (ix2 p (0 : Fin 1))) = _
  rw [rowSpread_apply]

/-- The block of pre-activation rows: the aggregated rows times W_l, plus the bias row, plus the own rows times W_r. -/
def preBlk (x agg : FVec Ideal S5000x128 .f32) (wl wr : FVec Ideal S128x128 .f32) (bl : FVec Ideal S128 .f32) : FVec Ideal S5000x128 .f32 :=
  addf (addf (matmul dot_S5000x128_S128x128_S5000x128_1_0_0_1_n_n none (truncf .bf16 agg bitsLt_bf16_f32) (truncf .bf16 wl bitsLt_bf16_f32) (constant S5000x128 .f32 0x00000000#32))
      (broadcastTo S5000x128 (shapeCast S1x128 bl shapeCasts_S128_S1x128) broadcasts_S1x128_S5000x128))
    (matmul dot_S5000x128_S128x128_S5000x128_1_0_0_1_n_n none (truncf .bf16 x bitsLt_bf16_f32) (truncf .bf16 wr bitsLt_bf16_f32) (constant S5000x128 .f32 0x00000000#32))

theorem preBlk_apply (x agg : FVec Ideal S5000x128 .f32) (wl wr : FVec Ideal S128x128 .f32) (bl : FVec Ideal S128 .f32) (p : Fin 5000) (q : Fin 128) :
    preBlk x agg wl wr bl (ix2 p q)
      = Cert.Sage.pre (Cert.Sage.row agg p) (Cert.Sage.row x p) (Cert.Sage.mat wl) (Cert.Sage.vec bl) (Cert.Sage.mat wr) q := by
  unfold preBlk
  refine (addf_apply _ _ _).trans ?_
  rw [mm_apply]
  refine congrArg (· + _) ((addf_apply _ _ _).trans ?_)
  rw [mm_apply, brow_apply]
  rfl

/-- Row p of the block of pre-activations is node p's pre-activation row. -/
theorem preBlk_row (x agg : FVec Ideal S5000x128 .f32) (wl wr : FVec Ideal S128x128 .f32) (bl : FVec Ideal S128 .f32) (p : Fin 5000) :
    Cert.Sage.row (preBlk x agg wl wr bl) p
      = Cert.Sage.pre (Cert.Sage.row agg p) (Cert.Sage.row x p) (Cert.Sage.mat wl) (Cert.Sage.vec bl) (Cert.Sage.mat wr) :=
  funext fun q => preBlk_apply x agg wl wr bl p q

/-! ## The two bodies -/

/-- The first body's store is the layer on the block's rows. -/
theorem body0 (x0 x1 : Vec Ideal S5000x128 .f32) (x2 : Vec Ideal S128x128 .f32) (x3 : Vec Ideal S128 .f32) (x4 : Vec Ideal S128x128 .f32)
    (x5 x6 : Vec Ideal S128 .f32) :
    k0_pay1 (k0_pay2 x0 x1 x2 x4 x3 x5) (k0_pay3 x6) = Cert.Sage.layer x0 x1 x2 x3 x4 x5 x6 := by
  funext i
  obtain ⟨p, q, rfl⟩ : ∃ (p : Fin 5000) (q : Fin 128), i = ix2 p q := ⟨i 0, i 1, eq_ix2 i⟩
  rw [Cert.Sage.layer_apply]
  have e2 : k0_pay2 x0 x1 x2 x4 x3 x5 = scaled (preBlk x0 x1 x2 x4 x3) x5 := by
    unfold k0_pay2 scaled rowSpread centred rowMean preBlk
    simp only [shapeCast_self]
  show max (k0_pay2 x0 x1 x2 x4 x3 x5 (ix2 p q) + k0_pay3 x6 (ix2 p q)) _ = _
  rw [e2, scaled_apply, preBlk_apply, preBlk_row]
  unfold k0_pay3
  rw [brow_apply]
  rfl

/-- The second body's store is the head of the layer on the block's rows. -/
theorem body1 (x0 x1 : Vec Ideal S5000x128 .f32) (x2 : Vec Ideal S128x128 .f32) (x3 : Vec Ideal S128 .f32) (x4 : Vec Ideal S128x128 .f32)
    (x5 x6 : Vec Ideal S128 .f32) (x7 : Vec Ideal S128x4 .f32) (x8 : Vec Ideal S4 .f32) :
    k1_pay1 (k1_pay2 x0 x1 x2 x4 x3 x5) (k1_pay3 x6) x7 x8 = Cert.Sage.head (Cert.Sage.layer x0 x1 x2 x3 x4 x5 x6) x7 x8 := by
  funext i
  obtain ⟨p, q, rfl⟩ : ∃ (p : Fin 5000) (q : Fin 4), i = ix2 p q := ⟨i 0, i 1, eq_ix2 i⟩
  rw [Cert.Sage.head_apply]
  have e2 : k1_pay2 x0 x1 x2 x4 x3 x5 = scaled (preBlk x0 x1 x2 x4 x3) x5 := by
    unfold k1_pay2 scaled rowSpread centred rowMean preBlk
    simp only [shapeCast_self]
  unfold k1_pay1 k1_pay3
  refine (addf_apply _ _ _).trans ?_
  rw [mh_apply, brow4_apply]
  refine congrArg (· + _) (Finset.sum_congr rfl fun k _ => ?_)
  refine congrArg (· * _) ?_
  show max (k1_pay2 x0 x1 x2 x4 x3 x5 (ix2 p k) + broadcastTo S5000x128 (shapeCast S1x128 x6 shapeCasts_S128_S1x128) broadcasts_S1x128_S5000x128 (ix2 p k)) _ = Cert.Sage.layer x0 x1 x2 x3 x4 x5 x6 (ix2 p k)
  rw [Cert.Sage.layer_apply, e2, scaled_apply, preBlk_apply, preBlk_row, brow_apply]
  rfl

end Cert.KernelIdeal.Bridge

end
-- ==== Proof.Region.lean ====
/-
  What each of the two regions leaves in its result array, for ANY contents V of the buffers at the region's entry.

  A region walks ten grid points; at point t it reads rows 5000 t .. 5000 t + 4999 of its two row-blocked operands and
  the whole of every weight, runs the body, and writes rows 5000 t .. 5000 t + 4999 of its result. By Body.lean the
  body's store is the layer (for the second region: the head of the layer) on the block's rows, and a row of the layer
  depends on the same row of its operands only. So what point t writes back is block t of ONE function of the entry
  arrays, the layer (the head of the layer) of the whole arrays; the ten blocks tile the result's 50000 rows; hence the
  result array ends holding that function.
-/
import proofs.«163054_j72181220377205_1_alg».proof.Proof.Gen.KernelIdeal.Frame
import proofs.«163054_j72181220377205_1_alg».proof.Proof.Body

set_option maxRecDepth 16384

noncomputable section

namespace Cert.KernelIdeal.Bridge

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0 -/

/-- The printed index maps of region 0, decided over its ten grid points: the row-blocked windows sit at block t of their
    arrays' rows, every other window at its whole array. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_7.index t (0 : Fin 2) = t.val
    ∧ win0_7.index t (1 : Fin 2) = 0
    ∧ win0_2.index t (0 : Fin 2) = 0
    ∧ win0_2.index t (1 : Fin 2) = 0
    ∧ win0_4.index t (0 : Fin 2) = 0
    ∧ win0_4.index t (1 : Fin 2) = 0
    ∧ win0_3.index t (0 : Fin 1) = 0
    ∧ win0_5.index t (0 : Fin 1) = 0
    ∧ win0_6.index t (0 : Fin 1) = 0 :=
  (by decide +kernel : ∀ t : Fin grid0.N, _)

theorem rowBound0 (t : Fin cfg0.N) (p : Fin 5000) : t.val * 5000 + p.val < 50000 := by
  have ht : t.val < 10 := Nat.lt_of_lt_of_eq t.isLt N_0
  have hp := p.isLt
  omega

/-- Row p of window 0's block at point t is row 5000 t + p of its array. -/
theorem rows0_0 (c : Dev nD) (t : Fin cfg0.N) (p : Fin 5000) (k : Fin 128) :
    iblk0 V c 0 t (ix2 p k) = V c main_arg0 (ix2 (⟨t.val * 5000 + p.val, rowBound0 t p⟩ : Fin 50000) k) := by
  obtain ⟨e0, e1, -, -, -, -, -, -, -, -, -, -, -⟩ := idx0 t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Row p of window 1's block at point t is row 5000 t + p of its array. -/
theorem rows0_1 (c : Dev nD) (t : Fin cfg0.N) (p : Fin 5000) (k : Fin 128) :
    iblk0 V c 1 t (ix2 p k) = V c main_v24 (ix2 (⟨t.val * 5000 + p.val, rowBound0 t p⟩ : Fin 50000) k) := by
  obtain ⟨-, -, e2, e3, -, -, -, -, -, -, -, -, -⟩ := idx0 t
  show V c main_v24 (((cfg0.win 1).blk t).view.emb (ix2 p k)) = _
  refine congrArg (V c main_v24) (funext fun a => Fin.ext ?_)
  match a with
  | ⟨0, _⟩ => show win0_1.index t (0 : Fin 2) * 5000 + 1 * p.val = t.val * 5000 + p.val; rw [e2]; omega
  | ⟨1, _⟩ => show win0_1.index t (1 : Fin 2) * 128 + 1 * k.val = k.val; rw [e3]; omega

/-- Window 2's block at any point is its whole array. -/
theorem whole0_2 (c : Dev nD) (t : Fin cfg0.N) (k : Fin 128) (j : Fin 128) :
    iblk0 V c 2 t (ix2 k j) = V c main_arg2 (ix2 k j) := by
  obtain ⟨-, -, -, -, -, -, e6, e7, -, -, -, -, -⟩ := idx0 t
  show V c main_arg2 (((cfg0.win 2).blk t).view.emb (ix2 k j)) = _
  refine congrArg (V c main_arg2) (funext fun a => Fin.ext ?_)
  match a with
  | ⟨0, _⟩ => show win0_2.index t (0 : Fin 2) * 128 + 1 * k.val = k.val; rw [e6]; omega
  | ⟨1, _⟩ => show win0_2.index t (1 : Fin 2) * 128 + 1 * j.val = j.val; rw [e7]; omega

/-- Window 4's block at any point is its whole array. -/
theorem whole0_4 (c : Dev nD) (t : Fin cfg0.N) (k : Fin 128) (j : Fin 128) :
    iblk0 V c 4 t (ix2 k j) = V c main_arg4 (ix2 k j) := by
  obtain ⟨-, -, -, -, -, -, -, -, e8, e9, -, -, -⟩ := idx0 t
  show V c main_arg4 (((cfg0.win 4).blk t).view.emb (ix2 k j)) = _
  refine congrArg (V c main_arg4) (funext fun a => Fin.ext ?_)
  match a with
  | ⟨0, _⟩ => show win0_4.index t (0 : Fin 2) * 128 + 1 * k.val = k.val; rw [e8]; omega
  | ⟨1, _⟩ => show win0_4.index t (1 : Fin 2) * 128 + 1 * j.val = j.val; rw [e9]; omega

/-- Window 3's block at any point is its whole array. -/
theorem whole0_3 (c : Dev nD) (t : Fin cfg0.N) (j : Fin 128) :
    iblk0 V c 3 t (ix1 j) = V c main_arg3 (ix1 j) := by
  obtain ⟨-, -, -, -, -, -, -, -, -, -, e10, -, -⟩ := idx0 t
  show V c main_arg3 (((cfg0.win 3).blk t).view.emb (ix1 j)) = _
  refine congrArg (V c main_arg3) (funext fun a => Fin.ext ?_)
  match a with
  | ⟨0, _⟩ => show win0_3.index t (0 : Fin 1) * 128 + 1 * j.val = j.val; rw [e10]; omega

/-- Window 5's block at any point is its whole array. -/
theorem whole0_5 (c : Dev nD) (t : Fin cfg0.N) (j : Fin 128) :
    iblk0 V c 5 t (ix1 j) = V c main_arg8 (ix1 j) := by
  obtain ⟨-, -, -, -, -, -, -, -, -, -, -, e11, -⟩ := idx0 t
  show V c main_arg8 (((cfg0.win 5).blk t).view.emb (ix1 j)) = _
  refine congrArg (V c main_arg8) (funext fun a => Fin.ext ?_)
  match a with
  | ⟨0, _⟩ => show win0_5.index t (0 : Fin 1) * 128 + 1 * j.val = j.val; rw [e11]; omega

/-- Window 6's block at any point is its whole array. -/
theorem whole0_6 (c : Dev nD) (t : Fin cfg0.N) (j : Fin 128) :
    iblk0 V c 6 t (ix1 j) = V c main_arg9 (ix1 j) := by
  obtain ⟨-, -, -, -, -, -, -, -, -, -, -, -, e12⟩ := idx0 t
  show V c main_arg9 (((cfg0.win 6).blk t).view.emb (ix1 j)) = _
  refine congrArg (V c main_arg9) (funext fun a => Fin.ext ?_)
  match a with
  | ⟨0, _⟩ => show win0_6.index t (0 : Fin 1) * 128 + 1 * j.val = j.val; rw [e12]; omega

/-- What region 0's result array ends holding: the layer of the arrays the region reads. -/
abbrev res0 (c : Dev nD) : (⟨2, ![50000, 128]⟩ : Shape).Idx → EReal := Cert.Sage.layer (V c main_arg0) (V c main_v24) (V c main_arg2) (V c main_arg3) (V c main_arg4) (V c main_arg8) (V c main_arg9)

/-- What point t writes back is block t of res0. -/
theorem flushed0 (c : Dev nD) (t : Fin cfg0.N) :
    (dat0 V c).flushed 7 t = ((cfg0.win 7).blk t).view.read (Elt Ideal) (res0 V c) := by
  show (cfg0.win 7).cut (grid0.coords t) ((dat0 V c).after 7 t) = _
  rw [after0_7]
  unfold out0_7
  rw [View.canon_unit_zero hz2]
  simp only [View.ld_unit_zero (S := S5000x128) hz2, View.ld_unit_zero (S := S128x128) hz2, View.ld_unit_zero (S := S128) hz1]
  rw [body0]
  funext y
  obtain ⟨p, q, rfl⟩ : ∃ (p : Fin 5000) (q : Fin 128), y = ix2 p q := ⟨y 0, y 1, eq_ix2 y⟩
  obtain ⟨-, -, -, -, e4, e5, -, -, -, -, -, -, -⟩ := idx0 t
  have he : ((cfg0.win 7).blk t).view.emb (ix2 p q) = ix2 (⟨t.val * 5000 + p.val, rowBound0 t p⟩ : Fin 50000) q :=
    funext fun a => Fin.ext (by
      match a with
      | ⟨0, _⟩ => show win0_7.index t (0 : Fin 2) * 5000 + 1 * p.val = t.val * 5000 + p.val; rw [e4]; omega
      | ⟨1, _⟩ => show win0_7.index t (1 : Fin 2) * 128 + 1 * q.val = q.val; rw [e5]; omega)
  show Cert.Sage.layer (iblk0 V c 0 t) (iblk0 V c 1 t) (iblk0 V c 2 t) (iblk0 V c 3 t) (iblk0 V c 4 t) (iblk0 V c 5 t) (iblk0 V c 6 t) (ix2 p q)
    = res0 V c (((cfg0.win 7).blk t).view.emb (ix2 p q))
  rw [he]
  exact Cert.Sage.layer_congr _ _ _ _ _ _ _ _ _ _ _ _ _ _ p _ (rows0_0 V c t p) (rows0_1 V c t p) (whole0_2 V c t) (whole0_3 V c t)
    (whole0_4 V c t) (whole0_5 V c t) (whole0_6 V c t) q

/-- Every row of the result is in some point's block: row i in block i / 5000. -/
theorem cover0 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have ht : (i 0).val / 5000 < cfg0.N := Nat.lt_of_lt_of_eq (by omega : (i 0).val / 5000 < 10) N_0.symm
  refine ⟨⟨(i 0).val / 5000, ht⟩, flush0_7 _, ?_⟩
  obtain ⟨-, -, -, -, e4, e5, -, -, -, -, -, -, -⟩ := idx0 ⟨(i 0).val / 5000, ht⟩
  show i ∈ ((View.whole main_v25).slice (win0_7.rect ⟨(i 0).val / 5000, ht⟩)).set
  rw [View.set_slice_whole, Rect.mem_set_unit]
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_7.index ⟨(i 0).val / 5000, ht⟩ (1 : Fin 2) * 128 ≤ (i 1).val ∧ (i 1).val < win0_7.index ⟨(i 0).val / 5000, ht⟩ (1 : Fin 2) * 128 + 128
    rw [e5]; omega

/-- Region 0's result array after its ten points. -/
theorem final0 (c : Dev nD) : (dat0 V c).arrAt 7 cfg0.N = res0 V c :=
  (dat0 V c).arrAt_eq_of_cover 7 (res0 V c) (fun t _ => flushed0 V c t) (cover0)

/-! ## Region 1 -/

/-- The printed index maps of region 1, decided over its ten grid points: the row-blocked windows sit at block t of their
    arrays' rows, every other window at its whole array. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_9.index t (0 : Fin 2) = t.val
    ∧ win1_9.index t (1 : Fin 2) = 0
    ∧ win1_2.index t (0 : Fin 2) = 0
    ∧ win1_2.index t (1 : Fin 2) = 0
    ∧ win1_4.index t (0 : Fin 2) = 0
    ∧ win1_4.index t (1 : Fin 2) = 0
    ∧ win1_7.index t (0 : Fin 2) = 0
    ∧ win1_7.index t (1 : Fin 2) = 0
    ∧ win1_3.index t (0 : Fin 1) = 0
    ∧ win1_5.index t (0 : Fin 1) = 0
    ∧ win1_6.index t (0 : Fin 1) = 0
    ∧ win1_8.index t (0 : Fin 1) = 0 :=
  (by decide +kernel : ∀ t : Fin grid1.N, _)

theorem rowBound1 (t : Fin cfg1.N) (p : Fin 5000) : t.val * 5000 + p.val < 50000 := by
  have ht : t.val < 10 := Nat.lt_of_lt_of_eq t.isLt N_1
  have hp := p.isLt
  omega

/-- Row p of window 0's block at point t is row 5000 t + p of its array. -/
theorem rows1_0 (c : Dev nD) (t : Fin cfg1.N) (p : Fin 5000) (k : Fin 128) :
    iblk1 V c 0 t (ix2 p k) = V c main_v25 (ix2 (⟨t.val * 5000 + p.val, rowBound1 t p⟩ : Fin 50000) k) := by
  obtain ⟨e0, e1, -, -, -, -, -, -, -, -, -, -, -, -, -, -⟩ := idx1 t
  show V c main_v25 (((cfg1.win 0).blk t).view.emb (ix2 p k)) = _
  refine congrArg (V c main_v25) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- Row p of window 1's block at point t is row 5000 t + p of its array. -/
theorem rows1_1 (c : Dev nD) (t : Fin cfg1.N) (p : Fin 5000) (k : Fin 128) :
    iblk1 V c 1 t (ix2 p k) = V c main_v37 (ix2 (⟨t.val * 5000 + p.val, rowBound1 t p⟩ : Fin 50000) k) := by
  obtain ⟨-, -, e2, e3, -, -, -, -, -, -, -, -, -, -, -, -⟩ := idx1 t
  show V c main_v37 (((cfg1.win 1).blk t).view.emb (ix2 p k)) = _
  refine congrArg (V c main_v37) (funext fun a => Fin.ext ?_)
  match a with
  | ⟨0, _⟩ => show win1_1.index t (0 : Fin 2) * 5000 + 1 * p.val = t.val * 5000 + p.val; rw [e2]; omega
  | ⟨1, _⟩ => show win1_1.index t (1 : Fin 2) * 128 + 1 * k.val = k.val; rw [e3]; omega

/-- Window 2's block at any point is its whole array. -/
theorem whole1_2 (c : Dev nD) (t : Fin cfg1.N) (k : Fin 128) (j : Fin 128) :
    iblk1 V c 2 t (ix2 k j) = V c main_arg5 (ix2 k j) := by
  obtain ⟨-, -, -, -, -, -, e6, e7, -, -, -, -, -, -, -, -⟩ := idx1 t
  show V c main_arg5 (((cfg1.win 2).blk t).view.emb (ix2 k j)) = _
  refine congrArg (V c main_arg5) (funext fun a => Fin.ext ?_)
  match a with
  | ⟨0, _⟩ => show win1_2.index t (0 : Fin 2) * 128 + 1 * k.val = k.val; rw [e6]; omega
  | ⟨1, _⟩ => show win1_2.index t (1 : Fin 2) * 128 + 1 * j.val = j.val; rw [e7]; omega

/-- Window 4's block at any point is its whole array. -/
theorem whole1_4 (c : Dev nD) (t : Fin cfg1.N) (k : Fin 128) (j : Fin 128) :
    iblk1 V c 4 t (ix2 k j) = V c main_arg7 (ix2 k j) := by
  obtain ⟨-, -, -, -, -, -, -, -, e8, e9, -, -, -, -, -, -⟩ := idx1 t
  show V c main_arg7 (((cfg1.win 4).blk t).view.emb (ix2 k j)) = _
  refine congrArg (V c main_arg7) (funext fun a => Fin.ext ?_)
  match a with
  | ⟨0, _⟩ => show win1_4.index t (0 : Fin 2) * 128 + 1 * k.val = k.val; rw [e8]; omega
  | ⟨1, _⟩ => show win1_4.index t (1 : Fin 2) * 128 + 1 * j.val = j.val; rw [e9]; omega

/-- Window 7's block at any point is its whole array. -/
theorem whole1_7 (c : Dev nD) (t : Fin cfg1.N) (k : Fin 128) (j : Fin 4) :
    iblk1 V c 7 t (ix2 k j) = V c main_arg12 (ix2 k j) := by
  obtain ⟨-, -, -, -, -, -, -, -, -, -, e10, e11, -, -, -, -⟩ := idx1 t
  show V c main_arg12 (((cfg1.win 7).blk t).view.emb (ix2 k j)) = _
  refine congrArg (V c main_arg12) (funext fun a => Fin.ext ?_)
  match a with
  | ⟨0, _⟩ => show win1_7.index t (0 : Fin 2) * 128 + 1 * k.val = k.val; rw [e10]; omega
  | ⟨1, _⟩ => show win1_7.index t (1 : Fin 2) * 4 + 1 * j.val = j.val; rw [e11]; omega

/-- Window 3's block at any point is its whole array. -/
theorem whole1_3 (c : Dev nD) (t : Fin cfg1.N) (j : Fin 128) :
    iblk1 V c 3 t (ix1 j) = V c main_arg6 (ix1 j) := by
  obtain ⟨-, -, -, -, -, -, -, -, -, -, -, -, e12, -, -, -⟩ := idx1 t
  show V c main_arg6 (((cfg1.win 3).blk t).view.emb (ix1 j)) = _
  refine congrArg (V c main_arg6) (funext fun a => Fin.ext ?_)
  match a with
  | ⟨0, _⟩ => show win1_3.index t (0 : Fin 1) * 128 + 1 * j.val = j.val; rw [e12]; omega

/-- Window 5's block at any point is its whole array. -/
theorem whole1_5 (c : Dev nD) (t : Fin cfg1.N) (j : Fin 128) :
    iblk1 V c 5 t (ix1 j) = V c main_arg10 (ix1 j) := by
  obtain ⟨-, -, -, -, -, -, -, -, -, -, -, -, -, e13, -, -⟩ := idx1 t
  show V c main_arg10 (((cfg1.win 5).blk t).view.emb (ix1 j)) = _
  refine congrArg (V c main_arg10) (funext fun a => Fin.ext ?_)
  match a with
  | ⟨0, _⟩ => show win1_5.index t (0 : Fin 1) * 128 + 1 * j.val = j.val; rw [e13]; omega

/-- Window 6's block at any point is its whole array. -/
theorem whole1_6 (c : Dev nD) (t : Fin cfg1.N) (j : Fin 128) :
    iblk1 V c 6 t (ix1 j) = V c main_arg11 (ix1 j) := by
  obtain ⟨-, -, -, -, -, -, -, -, -, -, -, -, -, -, e14, -⟩ := idx1 t
  show V c main_arg11 (((cfg1.win 6).blk t).view.emb (ix1 j)) = _
  refine congrArg (V c main_arg11) (funext fun a => Fin.ext ?_)
  match a with
  | ⟨0, _⟩ => show win1_6.index t (0 : Fin 1) * 128 + 1 * j.val = j.val; rw [e14]; omega

/-- Window 8's block at any point is its whole array. -/
theorem whole1_8 (c : Dev nD) (t : Fin cfg1.N) (j : Fin 4) :
    iblk1 V c 8 t (ix1 j) = V c main_arg13 (ix1 j) := by
  obtain ⟨-, -, -, -, -, -, -, -, -, -, -, -, -, -, -, e15⟩ := idx1 t
  show V c main_arg13 (((cfg1.win 8).blk t).view.emb (ix1 j)) = _
  refine congrArg (V c main_arg13) (funext fun a => Fin.ext ?_)
  match a with
  | ⟨0, _⟩ => show win1_8.index t (0 : Fin 1) * 4 + 1 * j.val = j.val; rw [e15]; omega

/-- What region 1's result array ends holding: the head of the layer of the arrays the region reads. -/
abbrev res1 (c : Dev nD) : (⟨2, ![50000, 4]⟩ : Shape).Idx → EReal :=
  Cert.Sage.head (Cert.Sage.layer (V c main_v25) (V c main_v37) (V c main_arg5) (V c main_arg6) (V c main_arg7) (V c main_arg10) (V c main_arg11)) (V c main_arg12) (V c main_arg13)

/-- What point t writes back is block t of res1. -/
theorem flushed1 (c : Dev nD) (t : Fin cfg1.N) :
    (dat1 V c).flushed 9 t = ((cfg1.win 9).blk t).view.read (Elt Ideal) (res1 V c) := by
  show (cfg1.win 9).cut (grid1.coords t) ((dat1 V c).after 9 t) = _
  rw [after1_9]
  unfold out1_9
  rw [View.canon_unit_zero hz2]
  simp only [View.ld_unit_zero (S := S5000x128) hz2, View.ld_unit_zero (S := S128x128) hz2, View.ld_unit_zero (S := S128) hz1,
    View.ld_unit_zero (S := S128x4) hz2, View.ld_unit_zero (S := S4) hz1]
  rw [body1]
  funext y
  obtain ⟨p, q, rfl⟩ : ∃ (p : Fin 5000) (q : Fin 4), y = ix2 p q := ⟨y 0, y 1, eq_ix2 y⟩
  obtain ⟨-, -, -, -, e4, e5, -, -, -, -, -, -, -, -, -, -⟩ := idx1 t
  have he : ((cfg1.win 9).blk t).view.emb (ix2 p q) = ix2 (⟨t.val * 5000 + p.val, rowBound1 t p⟩ : Fin 50000) q :=
    funext fun a => Fin.ext (by
      match a with
      | ⟨0, _⟩ => show win1_9.index t (0 : Fin 2) * 5000 + 1 * p.val = t.val * 5000 + p.val; rw [e4]; omega
      | ⟨1, _⟩ => show win1_9.index t (1 : Fin 2) * 4 + 1 * q.val = q.val; rw [e5]; omega)
  show Cert.Sage.head (Cert.Sage.layer (iblk1 V c 0 t) (iblk1 V c 1 t) (iblk1 V c 2 t) (iblk1 V c 3 t) (iblk1 V c 4 t) (iblk1 V c 5 t) (iblk1 V c 6 t)) (iblk1 V c 7 t) (iblk1 V c 8 t) (ix2 p q)
    = res1 V c (((cfg1.win 9).blk t).view.emb (ix2 p q))
  rw [he]
  refine Cert.Sage.head_congr _ _ _ _ _ _ p _ (fun k => ?_) (whole1_7 V c t) (whole1_8 V c t) q
  exact Cert.Sage.layer_congr _ _ _ _ _ _ _ _ _ _ _ _ _ _ p _ (rows1_0 V c t p) (rows1_1 V c t p) (whole1_2 V c t) (whole1_3 V c t)
    (whole1_4 V c t) (whole1_5 V c t) (whole1_6 V c t) k

/-- Every row of the result is in some point's block: row i in block i / 5000. -/
theorem cover1 (i : S50000x4.Idx) :
    ∃ t : Fin cfg1.N, (cfg1.win 9).flush t = true ∧ i ∈ ((cfg1.win 9).blk t).view.set := by
  have hi0 : (i 0).val < 50000 := (i 0).isLt
  have hi1 : (i 1).val < 4 := (i 1).isLt
  have ht : (i 0).val / 5000 < cfg1.N := Nat.lt_of_lt_of_eq (by omega : (i 0).val / 5000 < 10) N_1.symm
  refine ⟨⟨(i 0).val / 5000, ht⟩, flush1_9 _, ?_⟩
  obtain ⟨-, -, -, -, e4, e5, -, -, -, -, -, -, -, -, -, -⟩ := idx1 ⟨(i 0).val / 5000, ht⟩
  show i ∈ ((View.whole main_v38).slice (win1_9.rect ⟨(i 0).val / 5000, ht⟩)).set
  rw [View.set_slice_whole, Rect.mem_set_unit]
  intro a
  match a with
  | ⟨0, _⟩ =>
    show win1_9.index ⟨(i 0).val / 5000, ht⟩ (0 : Fin 2) * 5000 ≤ (i 0).val ∧ (i 0).val < win1_9.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_9.index ⟨(i 0).val / 5000, ht⟩ (1 : Fin 2) * 4 ≤ (i 1).val ∧ (i 1).val < win1_9.index ⟨(i 0).val / 5000, ht⟩ (1 : Fin 2) * 4 + 4
    rw [e5]; omega

/-- Region 1's result array after its ten points. -/
theorem final1 (c : Dev nD) : (dat1 V c).arrAt 9 cfg1.N = res1 V c :=
  (dat1 V c).arrAt_eq_of_cover 9 (res1 V c) (fun t _ => flushed1 V c t) (cover1)

end Cert.KernelIdeal.Bridge

end
-- ==== Proof.Ref.lean ====
/-
  The reference program read as the layer and the head of Layer.lean.

  The reference is one straight line of host operations. Its first layer's result (after relu) is, index by index, the
  layer of the node features x and of their neighbourhood means; its second layer's result is the layer of the first
  layer's result and of ITS neighbourhood means; its output is the head of the second layer's result. The neighbourhood
  mean (a gather along the edges' sources, a scatter-add at their destinations, a product with the reciprocal in-degree)
  is never opened: it is carried as the one function of the features and the edge list that the program applies.

  Each statement below follows the program's operations outermost first: a matrix product is the sum over the contracted
  column, a row sum is zero plus the sum over the row, a broadcast reads its operand at the coordinates it keeps.
-/
import proofs.«163054_j72181220377205_1_alg».proof.Proof.Gen.ReferenceIdeal.Read
import proofs.«163054_j72181220377205_1_alg».proof.Proof.Layer

noncomputable section

namespace Cert.ReferenceIdeal.Bridge

open Cert.ReferenceIdeal Cert.ReferenceIdeal.Gen Cert.ReferenceIdeal.Read Idealize.ShloMosaic Idealize.ShloMosaic.ValueIdx

/-! ## The first layer -/

/-- Its pre-activation at node r, column j. -/
theorem pre0 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (r : Fin 50000) (j : Fin 128) :
    val_main_v30 (F := Ideal) x0 x1 x2 x3 x4 (ix2 r j) = Cert.Sage.pre (Cert.Sage.row (val_main_v24 (F := Ideal) x0 x1) r) (Cert.Sage.row (x0) r) (Cert.Sage.mat x2) (Cert.Sage.vec x3) (Cert.Sage.mat x4) j := by
  rw [val_main_v30_apply, val_main_v28_apply, val_main_v25_apply, val_main_v27_apply, val_main_v26_apply, val_main_v29_apply]
  have e1 : ∀ k, lidx_main_v25 (ix2 r j) k = ix2 r k := fun k => funext fun a => Fin.ext (by match a with | ⟨0, _⟩ => rfl | ⟨1, _⟩ => rfl)
  have e2 : ∀ k, ridx_main_v25 (ix2 r j) k = ix2 k j := fun k => funext fun a => Fin.ext (by match a with | ⟨0, _⟩ => rfl | ⟨1, _⟩ => rfl)
  have e3 : idx_main_v26 (idx_main_v27 (ix2 r j)) = ix1 j := funext fun a => Fin.ext (by match a with | ⟨0, _⟩ => rfl)
  have e4 : ∀ k, lidx_main_v29 (ix2 r j) k = ix2 r k := fun k => funext fun a => Fin.ext (by match a with | ⟨0, _⟩ => rfl | ⟨1, _⟩ => rfl)
  have e5 : ∀ k, ridx_main_v29 (ix2 r j) k = ix2 k j := fun k => funext fun a => Fin.ext (by match a with | ⟨0, _⟩ => rfl | ⟨1, _⟩ => rfl)
  simp only [e1, e2, e3, e4, e5]
  rfl

/-- The mean of node r's pre-activation row, kept as a one-entry column. -/
theorem mean0 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (r : Fin 50000) (u : Fin 1) :
    val_main_v34 (F := Ideal) x0 x1 x2 x3 x4 (ix2 r u) = Cert.Sage.mean (Cert.Sage.pre (Cert.Sage.row (val_main_v24 (F := Ideal) x0 x1) r) (Cert.Sage.row (x0) r) (Cert.Sage.mat x2) (Cert.Sage.vec x3) (Cert.Sage.mat x4)) := by
  rw [val_main_v34_apply, val_main_v32_apply, val_main_v31_apply, val_main_v33_apply, val_main_cst_6_apply, val_main_cst_5_apply]
  have e1 : ∀ k, idx_main_v31 (idx_main_v32 (ix2 r u)) k = ix2 r k := fun k => funext fun a => Fin.ext (by match a with | ⟨0, _⟩ => rfl | ⟨1, _⟩ => rfl)
  simp only [e1, pre0]
  show Ideal.div (Ideal.ofBits .f32 0x00000000#32 + _) _ = _
  rw [Ideal.ofBits_zero_f32, zero_add]
  rfl

/-- The variance of node r's pre-activation row plus the stabiliser, kept as a one-entry column. -/
theorem spread0 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (r : Fin 50000) (u : Fin 1) :
    val_main_v45 (F := Ideal) x0 x1 x2 x3 x4 (ix2 r u) = Cert.Sage.spread (Cert.Sage.pre (Cert.Sage.row (val_main_v24 (F := Ideal) x0 x1) r) (Cert.Sage.row (x0) r) (Cert.Sage.mat x2) (Cert.Sage.vec x3) (Cert.Sage.mat x4)) := by
  rw [val_main_v45_apply, val_main_v41_apply, val_main_v39_apply, val_main_v38_apply, val_main_v40_apply, val_main_cst_8_apply,
    val_main_v44_apply, val_main_cst_9_apply, val_main_cst_7_apply]
  have hs : ∀ k : Fin 128, val_main_v37 (F := Ideal) x0 x1 x2 x3 x4 (idx_main_v38 (idx_main_v39 (ix2 r u)) k)
      = (Cert.Sage.pre (Cert.Sage.row (val_main_v24 (F := Ideal) x0 x1) r) (Cert.Sage.row (x0) r) (Cert.Sage.mat x2) (Cert.Sage.vec x3) (Cert.Sage.mat x4) k - Cert.Sage.mean (Cert.Sage.pre (Cert.Sage.row (val_main_v24 (F := Ideal) x0 x1) r) (Cert.Sage.row (x0) r) (Cert.Sage.mat x2) (Cert.Sage.vec x3) (Cert.Sage.mat x4))) * (Cert.Sage.pre (Cert.Sage.row (val_main_v24 (F := Ideal) x0 x1) r) (Cert.Sage.row (x0) r) (Cert.Sage.mat x2) (Cert.Sage.vec x3) (Cert.Sage.mat x4) k - Cert.Sage.mean (Cert.Sage.pre (Cert.Sage.row (val_main_v24 (F := Ideal) x0 x1) r) (Cert.Sage.row (x0) r) (Cert.Sage.mat x2) (Cert.Sage.vec x3) (Cert.Sage.mat x4))) := fun k => by
    rw [show idx_main_v38 (idx_main_v39 (ix2 r u)) k = ix2 r k from funext fun a => Fin.ext (by match a with | ⟨0, _⟩ => rfl | ⟨1, _⟩ => rfl), val_main_v37_apply, val_main_v36_apply, val_main_v35_apply,
      show idx_main_v35 (ix2 r k) = ix2 r (0 : Fin 1) from funext fun a => Fin.ext (by match a with | ⟨0, _⟩ => rfl | ⟨1, _⟩ => rfl), mean0, pre0]
    rfl
  rw [Finset.sum_congr rfl (fun k _ => hs k)]
  show Ideal.div (Ideal.ofBits .f32 0x00000000#32 + _) _ + _ = _
  rw [Ideal.ofBits_zero_f32, zero_add]
  rfl

/-- Its result is the layer of its two operands. -/
theorem layer0 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x8 : (⟨S128, .f32⟩ : BufTy).Contents (Elt Ideal)) (x9 : (⟨S128, .f32⟩ : BufTy).Contents (Elt Ideal)) :
    val_main_v55 (F := Ideal) x0 x1 x2 x3 x4 x8 x9 = Cert.Sage.layer (x0) (val_main_v24 (F := Ideal) x0 x1) x2 x3 x4 x8 x9 := by
  funext i
  obtain ⟨r, j, rfl⟩ : ∃ (r : Fin 50000) (j : Fin 128), i = ix2 r j := ⟨i 0, i 1, eq_ix2 i⟩
  rw [Cert.Sage.layer_apply, val_main_v55_apply, val_main_v54_apply, val_main_v51_apply, val_main_v48_apply, val_main_v43_apply,
    val_main_v42_apply, val_main_v47_apply, val_main_v46_apply, val_main_v50_apply, val_main_v49_apply, val_main_v53_apply,
    val_main_v52_apply, val_main_call0_v0_apply, val_main_call0_cst_apply]
  have e1 : idx_main_v42 (ix2 r j) = ix2 r (0 : Fin 1) := funext fun a => Fin.ext (by match a with | ⟨0, _⟩ => rfl | ⟨1, _⟩ => rfl)
  have e2 : idx_main_v47 (ix2 r j) = ix2 r (0 : Fin 1) := funext fun a => Fin.ext (by match a with | ⟨0, _⟩ => rfl | ⟨1, _⟩ => rfl)
  have e3 : idx_main_v49 (idx_main_v50 (ix2 r j)) = ix1 j := funext fun a => Fin.ext (by match a with | ⟨0, _⟩ => rfl)
  have e4 : idx_main_v52 (idx_main_v53 (ix2 r j)) = ix1 j := funext fun a => Fin.ext (by match a with | ⟨0, _⟩ => rfl)
  rw [e1, e2, e3, e4, pre0, mean0, spread0]
  rfl

/-! ## The second layer -/

/-- Its pre-activation at node r, column j. -/
theorem pre1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (r : Fin 50000) (j : Fin 128) :
    val_main_v73 (F := Ideal) x0 x1 x2 x3 x4 x5 x6 x7 x8 x9 (ix2 r j) = Cert.Sage.pre (Cert.Sage.row (val_main_v67 (F := Ideal) x0 x1 x2 x3 x4 x8 x9) r) (Cert.Sage.row (val_main_v55 (F := Ideal) x0 x1 x2 x3 x4 x8 x9) r) (Cert.Sage.mat x5) (Cert.Sage.vec x6) (Cert.Sage.mat x7) j := by
  rw [val_main_v73_apply, val_main_v71_apply, val_main_v68_apply, val_main_v70_apply, val_main_v69_apply, val_main_v72_apply]
  have e1 : ∀ k, lidx_main_v68 (ix2 r j) k = ix2 r k := fun k => funext fun a => Fin.ext (by match a with | ⟨0, _⟩ => rfl | ⟨1, _⟩ => rfl)
  have e2 : ∀ k, ridx_main_v68 (ix2 r j) k = ix2 k j := fun k => funext fun a => Fin.ext (by match a with | ⟨0, _⟩ => rfl | ⟨1, _⟩ => rfl)
  have e3 : idx_main_v69 (idx_main_v70 (ix2 r j)) = ix1 j := funext fun a => Fin.ext (by match a with | ⟨0, _⟩ => rfl)
  have e4 : ∀ k, lidx_main_v72 (ix2 r j) k = ix2 r k := fun k => funext fun a => Fin.ext (by match a with | ⟨0, _⟩ => rfl | ⟨1, _⟩ => rfl)
  have e5 : ∀ k, ridx_main_v72 (ix2 r j) k = ix2 k j := fun k => funext fun a => Fin.ext (by match a with | ⟨0, _⟩ => rfl | ⟨1, _⟩ => rfl)
  simp only [e1, e2, e3, e4, e5]
  rfl

/-- The mean of node r's pre-activation row, kept as a one-entry column. -/
theorem mean1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (r : Fin 50000) (u : Fin 1) :
    val_main_v77 (F := Ideal) x0 x1 x2 x3 x4 x5 x6 x7 x8 x9 (ix2 r u) = Cert.Sage.mean (Cert.Sage.pre (Cert.Sage.row (val_main_v67 (F := Ideal) x0 x1 x2 x3 x4 x8 x9) r) (Cert.Sage.row (val_main_v55 (F := Ideal) x0 x1 x2 x3 x4 x8 x9) r) (Cert.Sage.mat x5) (Cert.Sage.vec x6) (Cert.Sage.mat x7)) := by
  rw [val_main_v77_apply, val_main_v75_apply, val_main_v74_apply, val_main_v76_apply, val_main_cst_14_apply, val_main_cst_13_apply]
  have e1 : ∀ k, idx_main_v74 (idx_main_v75 (ix2 r u)) k = ix2 r k := fun k => funext fun a => Fin.ext (by match a with | ⟨0, _⟩ => rfl | ⟨1, _⟩ => rfl)
  simp only [e1, pre1]
  show Ideal.div (Ideal.ofBits .f32 0x00000000#32 + _) _ = _
  rw [Ideal.ofBits_zero_f32, zero_add]
  rfl

/-- The variance of node r's pre-activation row plus the stabiliser, kept as a one-entry column. -/
theorem spread1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (r : Fin 50000) (u : Fin 1) :
    val_main_v88 (F := Ideal) x0 x1 x2 x3 x4 x5 x6 x7 x8 x9 (ix2 r u) = Cert.Sage.spread (Cert.Sage.pre (Cert.Sage.row (val_main_v67 (F := Ideal) x0 x1 x2 x3 x4 x8 x9) r) (Cert.Sage.row (val_main_v55 (F := Ideal) x0 x1 x2 x3 x4 x8 x9) r) (Cert.Sage.mat x5) (Cert.Sage.vec x6) (Cert.Sage.mat x7)) := by
  rw [val_main_v88_apply, val_main_v84_apply, val_main_v82_apply, val_main_v81_apply, val_main_v83_apply, val_main_cst_16_apply,
    val_main_v87_apply, val_main_cst_17_apply, val_main_cst_15_apply]
  have hs : ∀ k : Fin 128, val_main_v80 (F := Ideal) x0 x1 x2 x3 x4 x5 x6 x7 x8 x9 (idx_main_v81 (idx_main_v82 (ix2 r u)) k)
      = (Cert.Sage.pre (Cert.Sage.row (val_main_v67 (F := Ideal) x0 x1 x2 x3 x4 x8 x9) r) (Cert.Sage.row (val_main_v55 (F := Ideal) x0 x1 x2 x3 x4 x8 x9) r) (Cert.Sage.mat x5) (Cert.Sage.vec x6) (Cert.Sage.mat x7) k - Cert.Sage.mean (Cert.Sage.pre (Cert.Sage.row (val_main_v67 (F := Ideal) x0 x1 x2 x3 x4 x8 x9) r) (Cert.Sage.row (val_main_v55 (F := Ideal) x0 x1 x2 x3 x4 x8 x9) r) (Cert.Sage.mat x5) (Cert.Sage.vec x6) (Cert.Sage.mat x7))) * (Cert.Sage.pre (Cert.Sage.row (val_main_v67 (F := Ideal) x0 x1 x2 x3 x4 x8 x9) r) (Cert.Sage.row (val_main_v55 (F := Ideal) x0 x1 x2 x3 x4 x8 x9) r) (Cert.Sage.mat x5) (Cert.Sage.vec x6) (Cert.Sage.mat x7) k - Cert.Sage.mean (Cert.Sage.pre (Cert.Sage.row (val_main_v67 (F := Ideal) x0 x1 x2 x3 x4 x8 x9) r) (Cert.Sage.row (val_main_v55 (F := Ideal) x0 x1 x2 x3 x4 x8 x9) r) (Cert.Sage.mat x5) (Cert.Sage.vec x6) (Cert.Sage.mat x7))) := fun k => by
    rw [show idx_main_v81 (idx_main_v82 (ix2 r u)) k = ix2 r k from funext fun a => Fin.ext (by match a with | ⟨0, _⟩ => rfl | ⟨1, _⟩ => rfl), val_main_v80_apply, val_main_v79_apply, val_main_v78_apply,
      show idx_main_v78 (ix2 r k) = ix2 r (0 : Fin 1) from funext fun a => Fin.ext (by match a with | ⟨0, _⟩ => rfl | ⟨1, _⟩ => rfl), mean1, pre1]
    rfl
  rw [Finset.sum_congr rfl (fun k _ => hs k)]
  show Ideal.div (Ideal.ofBits .f32 0x00000000#32 + _) _ + _ = _
  rw [Ideal.ofBits_zero_f32, zero_add]
  rfl

/-- Its result is the layer of its two operands. -/
theorem layer1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) :
    val_main_v98 (F := Ideal) x0 x1 x2 x3 x4 x5 x6 x7 x8 x9 x10 x11 = Cert.Sage.layer (val_main_v55 (F := Ideal) x0 x1 x2 x3 x4 x8 x9) (val_main_v67 (F := Ideal) x0 x1 x2 x3 x4 x8 x9) x5 x6 x7 x10 x11 := by
  funext i
  obtain ⟨r, j, rfl⟩ : ∃ (r : Fin 50000) (j : Fin 128), i = ix2 r j := ⟨i 0, i 1, eq_ix2 i⟩
  rw [Cert.Sage.layer_apply, val_main_v98_apply, val_main_v97_apply, val_main_v94_apply, val_main_v91_apply, val_main_v86_apply,
    val_main_v85_apply, val_main_v90_apply, val_main_v89_apply, val_main_v93_apply, val_main_v92_apply, val_main_v96_apply,
    val_main_v95_apply, val_main_call1_v0_apply, val_main_call1_cst_apply]
  have e1 : idx_main_v85 (ix2 r j) = ix2 r (0 : Fin 1) := funext fun a => Fin.ext (by match a with | ⟨0, _⟩ => rfl | ⟨1, _⟩ => rfl)
  have e2 : idx_main_v90 (ix2 r j) = ix2 r (0 : Fin 1) := funext fun a => Fin.ext (by match a with | ⟨0, _⟩ => rfl | ⟨1, _⟩ => rfl)
  have e3 : idx_main_v92 (idx_main_v93 (ix2 r j)) = ix1 j := funext fun a => Fin.ext (by match a with | ⟨0, _⟩ => rfl)
  have e4 : idx_main_v95 (idx_main_v96 (ix2 r j)) = ix1 j := funext fun a => Fin.ext (by match a with | ⟨0, _⟩ => rfl)
  rw [e1, e2, e3, e4, pre1, mean1, spread1]
  rfl

/-! ## The head -/

/-- The program's result is the head of the second layer's result. -/
theorem head2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x4, .f32⟩ : BufTy).Contents (Elt Ideal)) (x13 : (⟨S4, .f32⟩ : BufTy).Contents (Elt Ideal)) :
    val_main_v102 (F := Ideal) x0 x1 x2 x3 x4 x5 x6 x7 x8 x9 x10 x11 x12 x13 = Cert.Sage.head (val_main_v98 (F := Ideal) x0 x1 x2 x3 x4 x5 x6 x7 x8 x9 x10 x11) x12 x13 := by
  funext i
  obtain ⟨r, q, rfl⟩ : ∃ (r : Fin 50000) (q : Fin 4), i = ix2 r q := ⟨i 0, i 1, eq_ix2 i⟩
  rw [Cert.Sage.head_apply, val_main_v102_apply, val_main_v99_apply, val_main_v101_apply, val_main_v100_apply]
  have e1 : ∀ k, lidx_main_v99 (ix2 r q) k = ix2 r k := fun k => funext fun a => Fin.ext (by match a with | ⟨0, _⟩ => rfl | ⟨1, _⟩ => rfl)
  have e2 : ∀ k, ridx_main_v99 (ix2 r q) k = ix2 k q := fun k => funext fun a => Fin.ext (by match a with | ⟨0, _⟩ => rfl | ⟨1, _⟩ => rfl)
  have e3 : idx_main_v100 (idx_main_v101 (ix2 r q)) = ix1 q := funext fun a => Fin.ext (by match a with | ⟨0, _⟩ => rfl)
  simp only [e1, e2, e3]
  rfl

/-! ## The neighbourhood mean, carried whole -/

/-- The mean of the in-neighbours' rows as the program computes it from a feature array h, the edges' source and
    destination lists and the column of reciprocal in-degrees: gather the sources' rows (a negative source index counted
    from the end), add each into its destination's row, scale each row. It is applied, never opened. -/
def agg (h : (⟨S50000x128, .f32⟩ : BufTy).Contents (Elt Ideal)) (src dst : (⟨S800000, .i32⟩ : BufTy).Contents (Elt Ideal)) (dinv : (⟨S50000x1, .f32⟩ : BufTy).Contents (Elt Ideal)) : (⟨S50000x128, .f32⟩ : BufTy).Contents (Elt Ideal) :=
  mulf (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1 dinv)

/-- The first layer's second operand is the neighbourhood mean of the features. -/
theorem agg0_eq (x0 : (⟨S50000x128, .f32⟩ : BufTy).Contents (Elt Ideal)) (x1 : (⟨S2x800000, .i32⟩ : BufTy).Contents (Elt Ideal)) :
    val_main_v24 (F := Ideal) x0 x1 = agg x0 (val_main_v1 (F := Ideal) x1) (val_main_v3 (F := Ideal) x1) (val_main_v12 (F := Ideal) x1) := rfl

/-- The second layer's second operand is the neighbourhood mean of the first layer's result. -/
theorem agg1_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x8 : (⟨S128, .f32⟩ : BufTy).Contents (Elt Ideal)) (x9 : (⟨S128, .f32⟩ : BufTy).Contents (Elt Ideal)) :
    val_main_v67 (F := Ideal) x0 x1 x2 x3 x4 x8 x9 = agg (val_main_v55 (F := Ideal) x0 x1 x2 x3 x4 x8 x9) (val_main_v1 (F := Ideal) x1) (val_main_v3 (F := Ideal) x1) (val_main_v12 (F := Ideal) x1) := rfl

/-! ## The whole program -/

/-- The network: two layers, each on the previous features and their neighbourhood means, then the head. -/
def network (x : (⟨S50000x128, .f32⟩ : BufTy).Contents (Elt Ideal)) (src dst : (⟨S800000, .i32⟩ : BufTy).Contents (Elt Ideal)) (dinv : (⟨S50000x1, .f32⟩ : BufTy).Contents (Elt Ideal))
    (wl0 : (⟨S128x128, .f32⟩ : BufTy).Contents (Elt Ideal)) (bl0 : (⟨S128, .f32⟩ : BufTy).Contents (Elt Ideal)) (wr0 wl1 : (⟨S128x128, .f32⟩ : BufTy).Contents (Elt Ideal)) (bl1 : (⟨S128, .f32⟩ : BufTy).Contents (Elt Ideal))
    (wr1 : (⟨S128x128, .f32⟩ : BufTy).Contents (Elt Ideal)) (g0 b0 g1 b1 : (⟨S128, .f32⟩ : BufTy).Contents (Elt Ideal)) (wh : (⟨S128x4, .f32⟩ : BufTy).Contents (Elt Ideal)) (bh : (⟨S4, .f32⟩ : BufTy).Contents (Elt Ideal)) :
    (⟨S50000x4, .f32⟩ : BufTy).Contents (Elt Ideal) :=
  Cert.Sage.head
    (Cert.Sage.layer (Cert.Sage.layer x (agg x src dst dinv) wl0 bl0 wr0 g0 b0)
      (agg (Cert.Sage.layer x (agg x src dst dinv) wl0 bl0 wr0 g0 b0) src dst dinv) wl1 bl1 wr1 g1 b1) wh bh

/-- The reference's result is the network of its arguments. -/
theorem result_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x4, .f32⟩ : BufTy).Contents (Elt Ideal)) (x13 : (⟨S4, .f32⟩ : BufTy).Contents (Elt Ideal)) :
    val_main_v102 (F := Ideal) x0 x1 x2 x3 x4 x5 x6 x7 x8 x9 x10 x11 x12 x13
      = network x0 (val_main_v1 (F := Ideal) x1) (val_main_v3 (F := Ideal) x1) (val_main_v12 (F := Ideal) x1) x2 x3 x4 x5 x6 x7 x8 x9 x10 x11 x12 x13 := by
  rw [head2, layer1, agg1_eq, layer0, agg0_eq]
  rfl

end Cert.ReferenceIdeal.Bridge

end
-- ==== Proof.KRun.lean ====
/-
  The idealized kernel program's run, with what its result array ends holding.

  The program is four stretches: host operations (the edge lists, the reciprocal in-degrees, the neighbourhood means of
  the node features), the first region, host operations (the neighbourhood means of the first region's result), the
  second region. Region.lean says what each region leaves in its result array as a function of the buffers it finds at
  entry; here those entry buffers are read back through the host stretches to the argument arrays: an argument is as
  launched, the neighbourhood mean is the one function of a feature array and the edge lists that both programs apply
  (the reference's spelling of it, Ref.lean), and the second region's first operand is the first region's result. So the
  result array ends holding the network of Ref.lean of the argument arrays.

  The run itself is the launch of the four segments over the regions' proof data, with the result buffer read beside the
  argument buffers at the last boundary's contents.
-/
import proofs.«163054_j72181220377205_1_alg».proof.Proof.Gen.KernelIdeal.Frame
import proofs.«163054_j72181220377205_1_alg».proof.Proof.Region
import proofs.«163054_j72181220377205_1_alg».proof.Proof.Ref

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

local notation "𝕄" => MT nD τ sig Unit (Elt Ideal) ℕ (UR sig nD τ) ℕ

variable (m : (ℓ : Loc nD τ sig) → Buf (Elt Ideal) ℓ) (ρ : Dev nD → PrngReg)

/-! ## The run, with the result buffer read at the last boundary -/

set_option backward.isDefEq.respectTransparency.types false in
/-- Every weakly fair execution terminates without a fault; the result buffer ends at the last boundary's contents and
    the argument buffers as launched. -/
theorem run_named : θ_run defs (onTc (τ := τ) (main (F := Ideal))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

/-! ## The first region's operands, read back to the arguments -/

theorem in0_main_arg0 (c : Dev nD) : V1 m ρ c main_arg0 = m ((c : Thread nD τ).loc main_arg0) := by
  show StableHlo.after hostOps0 (W0 m ρ c) (Proc.devRef .tc main_arg0) = _
  after_results_simp <;> rfl

theorem in0_main_arg2 (c : Dev nD) : V1 m ρ c main_arg2 = m ((c : Thread nD τ).loc main_arg2) := by
  show StableHlo.after hostOps0 (W0 m ρ c) (Proc.devRef .tc main_arg2) = _
  after_results_simp <;> rfl

theorem in0_main_arg3 (c : Dev nD) : V1 m ρ c main_arg3 = m ((c : Thread nD τ).loc main_arg3) := by
  show StableHlo.after hostOps0 (W0 m ρ c) (Proc.devRef .tc main_arg3) = _
  after_results_simp <;> rfl

theorem in0_main_arg4 (c : Dev nD) : V1 m ρ c main_arg4 = m ((c : Thread nD τ).loc main_arg4) := by
  show StableHlo.after hostOps0 (W0 m ρ c) (Proc.devRef .tc main_arg4) = _
  after_results_simp <;> rfl

theorem in0_main_arg8 (c : Dev nD) : V1 m ρ c main_arg8 = m ((c : Thread nD τ).loc main_arg8) := by
  show StableHlo.after hostOps0 (W0 m ρ c) (Proc.devRef .tc main_arg8) = _
  after_results_simp <;> rfl

theorem in0_main_arg9 (c : Dev nD) : V1 m ρ c main_arg9 = m ((c : Thread nD τ).loc main_arg9) := by
  show StableHlo.after hostOps0 (W0 m ρ c) (Proc.devRef .tc main_arg9) = _
  after_results_simp <;> rfl

/-- The first region's second operand is the neighbourhood mean of the node features. -/
theorem in0_main_v24 (c : Dev nD) :
    V1 m ρ c main_v24 = Cert.ReferenceIdeal.Bridge.agg (m ((c : Thread nD τ).loc main_arg0)) (Cert.ReferenceIdeal.Read.val_main_v1 (F := Ideal) (m ((c : Thread nD τ).loc main_arg1)))
      (Cert.ReferenceIdeal.Read.val_main_v3 (F := Ideal) (m ((c : Thread nD τ).loc main_arg1))) (Cert.ReferenceIdeal.Read.val_main_v12 (F := Ideal) (m ((c : Thread nD τ).loc main_arg1))) := by
  show StableHlo.after hostOps0 (W0 m ρ c) (Proc.devRef .tc main_v24) = _
  after_results_simp <;> rfl

/-- The first layer's result, as the first region leaves it. -/
abbrev hidden (c : Dev nD) : (⟨2, ![50000, 128]⟩ : Shape).Idx → EReal :=
  Cert.Sage.layer (m ((c : Thread nD τ).loc main_arg0))
    (Cert.ReferenceIdeal.Bridge.agg (m ((c : Thread nD τ).loc main_arg0)) (Cert.ReferenceIdeal.Read.val_main_v1 (F := Ideal) (m ((c : Thread nD τ).loc main_arg1)))
      (Cert.ReferenceIdeal.Read.val_main_v3 (F := Ideal) (m ((c : Thread nD τ).loc main_arg1))) (Cert.ReferenceIdeal.Read.val_main_v12 (F := Ideal) (m ((c : Thread nD τ).loc main_arg1))))
    (m ((c : Thread nD τ).loc main_arg2)) (m ((c : Thread nD τ).loc main_arg3)) (m ((c : Thread nD τ).loc main_arg4)) (m ((c : Thread nD τ).loc main_arg8)) (m ((c : Thread nD τ).loc main_arg9))

/-- After the first region its result buffer holds the first layer of the arguments. -/
theorem mid_v25 (c : Dev nD) : W2 m ρ c (Proc.devRef .tc main_v25) = hidden m c := by
  refine ((W2_arr m ρ c 7).trans (final0 (V1 m ρ) c)).trans ?_
  show Cert.Sage.layer (V1 m ρ c main_arg0) (V1 m ρ c main_v24) (V1 m ρ c main_arg2) (V1 m ρ c main_arg3) (V1 m ρ c main_arg4)
    (V1 m ρ c main_arg8) (V1 m ρ c main_arg9) = _
  rw [in0_main_arg0, in0_main_v24, in0_main_arg2, in0_main_arg3, in0_main_arg4, in0_main_arg8, in0_main_arg9]

/-! ## The second region's operands -/

/-- The host's list of edge sources, unchanged by the first region, is the reference's. -/
theorem edges_main_v1 (c : Dev nD) : W2 m ρ c (Proc.devRef .tc main_v1) = Cert.ReferenceIdeal.Read.val_main_v1 (F := Ideal) (m ((c : Thread nD τ).loc main_arg1)) := by
  rw [W2_of_ne m ρ c main_v1 (by decide)]
  show StableHlo.after hostOps0 (W0 m ρ c) (Proc.devRef .tc main_v1) = _
  after_results_simp <;> rfl

/-- The host's list of edge destinations, unchanged by the first region, is the reference's. -/
theorem edges_main_v3 (c : Dev nD) : W2 m ρ c (Proc.devRef .tc main_v3) = Cert.ReferenceIdeal.Read.val_main_v3 (F := Ideal) (m ((c : Thread nD τ).loc main_arg1)) := by
  rw [W2_of_ne m ρ c main_v3 (by decide)]
  show StableHlo.after hostOps0 (W0 m ρ c) (Proc.devRef .tc main_v3) = _
  after_results_simp <;> rfl

/-- The host's column of reciprocal in-degrees, unchanged by the first region, is the reference's. -/
theorem edges_main_v12 (c : Dev nD) : W2 m ρ c (Proc.devRef .tc main_v12) = Cert.ReferenceIdeal.Read.val_main_v12 (F := Ideal) (m ((c : Thread nD τ).loc main_arg1)) := by
  rw [W2_of_ne m ρ c main_v12 (by decide)]
  show StableHlo.after hostOps0 (W0 m ρ c) (Proc.devRef .tc main_v12) = _
  after_results_simp <;> rfl

/-- The second region's first operand is the first region's result. -/
theorem in1_main_v25 (c : Dev nD) : V3 m ρ c main_v25 = hidden m c := by
  show StableHlo.after hostOps1 (W2 m ρ c) (Proc.devRef .tc main_v25) = _
  have e : StableHlo.after hostOps1 (W2 m ρ c) (Proc.devRef .tc main_v25) = W2 m ρ c (Proc.devRef .tc main_v25) := by
    after_results_simp <;> rfl
  rw [e, mid_v25]

/-- The second region's second operand is the neighbourhood mean of the first region's result. -/
theorem in1_main_v37 (c : Dev nD) :
    V3 m ρ c main_v37 = Cert.ReferenceIdeal.Bridge.agg (hidden m c) (Cert.ReferenceIdeal.Read.val_main_v1 (F := Ideal) (m ((c : Thread nD τ).loc main_arg1)))
      (Cert.ReferenceIdeal.Read.val_main_v3 (F := Ideal) (m ((c : Thread nD τ).loc main_arg1))) (Cert.ReferenceIdeal.Read.val_main_v12 (F := Ideal) (m ((c : Thread nD τ).loc main_arg1))) := by
  have e : V3 m ρ c main_v37 = Cert.ReferenceIdeal.Bridge.agg (W2 m ρ c (Proc.devRef .tc main_v25)) (W2 m ρ c (Proc.devRef .tc main_v1))
      (W2 m ρ c (Proc.devRef .tc main_v3)) (W2 m ρ c (Proc.devRef .tc main_v12)) := by
    show StableHlo.after hostOps1 (W2 m ρ c) (Proc.devRef .tc main_v37) = _
    after_results_simp <;> rfl
  rw [e, mid_v25, edges_main_v1, edges_main_v3, edges_main_v12]

theorem in1_main_arg5 (c : Dev nD) : V3 m ρ c main_arg5 = m ((c : Thread nD τ).loc main_arg5) := by
  show StableHlo.after hostOps1 (W2 m ρ c) (Proc.devRef .tc main_arg5) = _
  have e : StableHlo.after hostOps1 (W2 m ρ c) (Proc.devRef .tc main_arg5) = W2 m ρ c (Proc.devRef .tc main_arg5) := by
    after_results_simp <;> rfl
  rw [e, W2_of_ne m ρ c main_arg5 (by decide)]
  show StableHlo.after hostOps0 (W0 m ρ c) (Proc.devRef .tc main_arg5) = _
  after_results_simp <;> rfl

theorem in1_main_arg6 (c : Dev nD) : V3 m ρ c main_arg6 = m ((c : Thread nD τ).loc main_arg6) := by
  show StableHlo.after hostOps1 (W2 m ρ c) (Proc.devRef .tc main_arg6) = _
  have e : StableHlo.after hostOps1 (W2 m ρ c) (Proc.devRef .tc main_arg6) = W2 m ρ c (Proc.devRef .tc main_arg6) := by
    after_results_simp <;> rfl
  rw [e, W2_of_ne m ρ c main_arg6 (by decide)]
  show StableHlo.after hostOps0 (W0 m ρ c) (Proc.devRef .tc main_arg6) = _
  after_results_simp <;> rfl

theorem in1_main_arg7 (c : Dev nD) : V3 m ρ c main_arg7 = m ((c : Thread nD τ).loc main_arg7) := by
  show StableHlo.after hostOps1 (W2 m ρ c) (Proc.devRef .tc main_arg7) = _
  have e : StableHlo.after hostOps1 (W2 m ρ c) (Proc.devRef .tc main_arg7) = W2 m ρ c (Proc.devRef .tc main_arg7) := by
    after_results_simp <;> rfl
  rw [e, W2_of_ne m ρ c main_arg7 (by decide)]
  show StableHlo.after hostOps0 (W0 m ρ c) (Proc.devRef .tc main_arg7) = _
  after_results_simp <;> rfl

theorem in1_main_arg10 (c : Dev nD) : V3 m ρ c main_arg10 = m ((c : Thread nD τ).loc main_arg10) := by
  show StableHlo.after hostOps1 (W2 m ρ c) (Proc.devRef .tc main_arg10) = _
  have e : StableHlo.after hostOps1 (W2 m ρ c) (Proc.devRef .tc main_arg10) = W2 m ρ c (Proc.devRef .tc main_arg10) := by
    after_results_simp <;> rfl
  rw [e, W2_of_ne m ρ c main_arg10 (by decide)]
  show StableHlo.after hostOps0 (W0 m ρ c) (Proc.devRef .tc main_arg10) = _
  after_results_simp <;> rfl

theorem in1_main_arg11 (c : Dev nD) : V3 m ρ c main_arg11 = m ((c : Thread nD τ).loc main_arg11) := by
  show StableHlo.after hostOps1 (W2 m ρ c) (Proc.devRef .tc main_arg11) = _
  have e : StableHlo.after hostOps1 (W2 m ρ c) (Proc.devRef .tc main_arg11) = W2 m ρ c (Proc.devRef .tc main_arg11) := by
    after_results_simp <;> rfl
  rw [e, W2_of_ne m ρ c main_arg11 (by decide)]
  show StableHlo.after hostOps0 (W0 m ρ c) (Proc.devRef .tc main_arg11) = _
  after_results_simp <;> rfl

theorem in1_main_arg12 (c : Dev nD) : V3 m ρ c main_arg12 = m ((c : Thread nD τ).loc main_arg12) := by
  show StableHlo.after hostOps1 (W2 m ρ c) (Proc.devRef .tc main_arg12) = _
  have e : StableHlo.after hostOps1 (W2 m ρ c) (Proc.devRef .tc main_arg12) = W2 m ρ c (Proc.devRef .tc main_arg12) := by
    after_results_simp <;> rfl
  rw [e, W2_of_ne m ρ c main_arg12 (by decide)]
  show StableHlo.after hostOps0 (W0 m ρ c) (Proc.devRef .tc main_arg12) = _
  after_results_simp <;> rfl

theorem in1_main_arg13 (c : Dev nD) : V3 m ρ c main_arg13 = m ((c : Thread nD τ).loc main_arg13) := by
  show StableHlo.after hostOps1 (W2 m ρ c) (Proc.devRef .tc main_arg13) = _
  have e : StableHlo.after hostOps1 (W2 m ρ c) (Proc.devRef .tc main_arg13) = W2 m ρ c (Proc.devRef .tc main_arg13) := by
    after_results_simp <;> rfl
  rw [e, W2_of_ne m ρ c main_arg13 (by decide)]
  show StableHlo.after hostOps0 (W0 m ρ c) (Proc.devRef .tc main_arg13) = _
  after_results_simp <;> rfl

/-! ## The result -/

/-- The result buffer at the last boundary holds the network of the arguments. -/
theorem result_eq (c : Dev nD) :
    W4 m ρ c (Proc.devRef .tc main_v38) = Cert.ReferenceIdeal.Bridge.network (m ((c : Thread nD τ).loc main_arg0)) (Cert.ReferenceIdeal.Read.val_main_v1 (F := Ideal) (m ((c : Thread nD τ).loc main_arg1))) (Cert.ReferenceIdeal.Read.val_main_v3 (F := Ideal) (m ((c : Thread nD τ).loc main_arg1))) (Cert.ReferenceIdeal.Read.val_main_v12 (F := Ideal) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W4_arr m ρ c 9).trans (final1 (V3 m ρ) c)).trans ?_
  show Cert.Sage.head (Cert.Sage.layer (V3 m ρ c main_v25) (V3 m ρ c main_v37) (V3 m ρ c main_arg5) (V3 m ρ c main_arg6) (V3 m ρ c main_arg7)
    (V3 m ρ c main_arg10) (V3 m ρ c main_arg11)) (V3 m ρ c main_arg12) (V3 m ρ c main_arg13) = _
  rw [in1_main_v25, in1_main_v37, in1_main_arg5, in1_main_arg6, in1_main_arg7, in1_main_arg10, in1_main_arg11, in1_main_arg12,
    in1_main_arg13]
  rfl

/-- The idealized kernel program's run: the result array ends holding the network of the argument arrays, which end
    as launched. -/
theorem run : θ_run defs (onTc (τ := τ) (main (F := Ideal))) ⟨m, fun _ => 0, ρ⟩ (fun r => ∀ c : Dev nD,
      r.2.mem ((c.tc : Thread nD τ).loc main_v38) = Cert.ReferenceIdeal.Bridge.network (m ((c.tc : Thread nD τ).loc main_arg0)) (Cert.ReferenceIdeal.Read.val_main_v1 (F := Ideal) (m ((c.tc : Thread nD τ).loc main_arg1))) (Cert.ReferenceIdeal.Read.val_main_v3 (F := Ideal) (m ((c.tc : Thread nD τ).loc main_arg1))) (Cert.ReferenceIdeal.Read.val_main_v12 (F := Ideal) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_eq m ρ c), (h c).2⟩) (run_named m ρ)

end Cert.KernelIdeal.Bridge

end
-- ==== Proof.lean ====
/-
  A two-layer GraphSAGE network with a four-column head on 50000 nodes and 800000 edges: the kernel program against its
  reference, over the extended reals.

  Both programs first compute, with the same host operations, the edges' source and destination lists and every node's
  reciprocal in-degree, and the mean of each node's in-neighbours' feature rows. A layer then maps a node's own row x and
  its neighbourhood mean a to relu (LN (a · W_l + b_l + x · W_r)), and the head maps the second layer's rows to
  h · W_h + b_h. The reference does this on the whole arrays; the kernel program does each layer in a region that walks
  ten blocks of 5000 node rows, the head inside the second region, and recomputes the neighbourhood means of the first
  region's result on the host in between. On the extended reals a change of float format is the identity, the matrix
  unit's product into a zero accumulator and the host's product are the same sum over the contracted column, a lane sum
  and the host's row sum are the same sum, and a row of a layer's result depends on that node's rows only; so both
  programs end with the one function of the arguments that Ref.lean calls the network. No law used needs the inputs to
  be finite, and the precondition is never opened.

  The idealization rewrote nothing, so the preservation claim is trivially true; the three frames are the generated
  frames (for the reference: its generated run with the result dropped).
-/
import proofs.«163054_j72181220377205_1_alg».proof.Defs
import proofs.«163054_j72181220377205_1_alg».proof.Proof.Gen.Kernel
import proofs.«163054_j72181220377205_1_alg».proof.Proof.Gen.Kernel.Frame
import proofs.«163054_j72181220377205_1_alg».proof.Proof.Gen.KernelIdeal
import proofs.«163054_j72181220377205_1_alg».proof.Proof.Gen.KernelIdeal.Frame
import proofs.«163054_j72181220377205_1_alg».proof.Proof.Gen.ReferenceIdeal
import proofs.«163054_j72181220377205_1_alg».proof.Proof.Gen.Pre_finite_inputs
import proofs.«163054_j72181220377205_1_alg».proof.Proof.Gen.ReferenceIdeal.Run
import proofs.«163054_j72181220377205_1_alg».proof.Proof.Gen.ReferenceIdeal.Read
import proofs.«163054_j72181220377205_1_alg».proof.Proof.KRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the network of the arguments in their result array. -/
theorem algebraic : Cert.algebraic_KernelIdeal_ReferenceIdeal := by
  intro m ρ m' ρ' _ hagree
  refine ⟨fun c => Cert.ReferenceIdeal.Bridge.network (m ((c.tc : Thread Cert.KernelIdeal.nD Cert.KernelIdeal.τ).loc Cert.KernelIdeal.main_arg0)) (Cert.ReferenceIdeal.Read.val_main_v1 (F := Ideal) (m ((c.tc : Thread Cert.KernelIdeal.nD Cert.KernelIdeal.τ).loc Cert.KernelIdeal.main_arg1))) (Cert.ReferenceIdeal.Read.val_main_v3 (F := Ideal) (m ((c.tc : Thread Cert.KernelIdeal.nD Cert.KernelIdeal.τ).loc Cert.KernelIdeal.main_arg1))) (Cert.ReferenceIdeal.Read.val_main_v12 (F := Ideal) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v102_eq, Cert.ReferenceIdeal.Bridge.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
